-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  main_v88

def fn_part4 {F : FTy → Type} [FloatOps F] (main_arg14 : FVec F S512 .f32) (main_arg15 : FVec F S512 .f32) (main_arg16 : FVec F S512 .f32) (main_arg17 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512x512 .f32) (main_arg12 : FVec F S512x512 .f32) (main_arg13 : FVec F S512 .f32) (main_arg14 : FVec F S512 .f32) (main_arg15 : FVec F S512 .f32) (main_arg16 : FVec F S512 .f32) (main_arg17 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_v63 main_v67

def fn_part2 {F : FTy → Type} [FloatOps F] (main_arg7 : FVec F S512x512 .f32) (main_arg8 : FVec F S512x512 .f32) (main_arg9 : FVec F S512x512 .f32) (main_arg10 : FVec F S512x512 .f32) (main_arg11 : FVec F S512x512 .f32) (main_arg12 : FVec F S512x512 .f32) (main_arg13 : FVec F S512 .f32) (main_arg14 : FVec F S512 .f32) (main_arg15 : FVec F S512 .f32) (main_arg16 : FVec F S512 .f32) (main_arg17 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_v48 main_v49 main_v50

def fn_part1 {F : FTy → Type} [FloatOps F] (main_arg4 : FVec F S512x512 .f32) (main_arg5 : FVec F S512x512 .f32) (main_arg6 : FVec F S512x512 .f32) (main_arg7 : FVec F S512x512 .f32) (main_arg8 : FVec F S512x512 .f32) (main_arg9 : FVec F S512x512 .f32) (main_arg10 : FVec F S512x512 .f32) (main_arg11 : FVec F S512x512 .f32) (main_arg12 : FVec F S512x512 .f32) (main_arg13 : FVec F S512 .f32) (main_arg14 : FVec F S512 .f32) (main_arg15 : FVec F S512 .f32) (main_arg16 : FVec F S512 .f32) (main_arg17 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S32768x512 .f32) (main_arg1 : FVec F S32768x512 .f32) (main_arg2 : FVec F S32768x512 .f32) (main_arg3 : FVec F S512x512 .f32) (main_arg4 : FVec F S512x512 .f32) (main_arg5 : FVec F S512x512 .f32) (main_arg6 : FVec F S512x512 .f32) (main_arg7 : FVec F S512x512 .f32) (main_arg8 : FVec F S512x512 .f32) (main_arg9 : FVec F S512x512 .f32) (main_arg10 : FVec F S512x512 .f32) (main_arg11 : FVec F S512x512 .f32) (main_arg12 : FVec F S512x512 .f32) (main_arg13 : FVec F S512 .f32) (main_arg14 : FVec F S512 .f32) (main_arg15 : FVec F S512 .f32) (main_arg16 : FVec F S512 .f32) (main_arg17 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S32768x512 : Shape := ⟨2, ![32768, 512]⟩
abbrev S512x512 : Shape := ⟨2, ![512, 512]⟩
abbrev S512 : Shape := ⟨1, ![512]⟩
abbrev S512x2048 : Shape := ⟨2, ![512, 2048]⟩
abbrev S512x2560 : Shape := ⟨2, ![512, 2560]⟩
abbrev S1x512 : Shape := ⟨2, ![1, 512]⟩

abbrev nBuf : Space → Nat
  | .hbm => 29
  | .vmem => 16
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512x2048, .f32⟩
  | .hbm, ⟨19, _⟩ => ⟨S512x2048, .bf16⟩
  | .hbm, ⟨20, _⟩ => ⟨S512x2560, .f32⟩
  | .hbm, ⟨21, _⟩ => ⟨S512x2560, .bf16⟩
  | .hbm, ⟨22, _⟩ => ⟨S512x512, .bf16⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2560, .bf16⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  concatenates_S512x512_S512x512_S512x512_S512x512_S512x2048_d1 : Shape.Concatenates [S512x512, S512x512, S512x512, S512x512] S512x2048 1
  bitsLt_bf16_f32 : FTy.bits .bf16 < FTy.bits .f32
  concatenates_S512x512_S512x512_S512x512_S512x512_S512x512_S512x2560_d1 : Shape.Concatenates [S512x512, S512x512, S512x512, S512x512, S512x512] S512x2560 1
  shapeCasts_S512_S1x512 : S512.ShapeCasts S1x512
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x2560_S512x2560_0_0 : ∀ a, (![0, 0] : Fin 2 → Nat) a + S512x2560.size a ≤ S512x2560.size a
  h_S512x2560 : 0 < S512x2560.numel
  shapeCasts_S512x2560_S512x2560 : S512x2560.ShapeCasts S512x2560
  slices_S512x2048_o0_0_S512x512 : S512x2048.Slices ![0, 0] S512x512
  slices_S512x2560_o0_0_S512x512 : S512x2560.Slices ![0, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x512_S512x512 : S512x512.ShapeCasts S512x512
  slices_S512x2560_o0_512_S512x512 : S512x2560.Slices ![0, 512] S512x512
  slices_S512x2048_o0_512_S512x512 : S512x2048.Slices ![0, 512] S512x512
  slices_S512x2560_o0_1024_S512x512 : S512x2560.Slices ![0, 1024] S512x512
  slices_S512x2048_o0_1024_S512x512 : S512x2048.Slices ![0, 1024] S512x512
  slices_S512x2560_o0_1536_S512x512 : S512x2560.Slices ![0, 1536] S512x512
  slices_S512x2048_o0_1536_S512x512 : S512x2048.Slices ![0, 1536] S512x512
  slices_S512x2560_o0_2048_S512x512 : S512x2560.Slices ![0, 2048] S512x512
  dot_S512x512_S512x2048_S512x2048_1_0_0_1_n_n_wf : DotDims.WF S512x512 S512x2048 S512x2048 [1] [0] [0] [1] [] []
  dot_S512x512_S512x2560_S512x2560_1_0_0_1_n_n_wf : DotDims.WF S512x512 S512x2560 S512x2560 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2560.size a ≤ S512x2560.size a
  hwx0_4 : ∀ i : grid0.Coords, EltTy.bits .bf16 = 32 ∨ (Rect.block (s := S512x2560) S512x2560.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S32768x512.size a
  hwx0_11 : ∀ i : grid0.Coords, EltTy.bits .f32 = 32 ∨ (Rect.block (s := S32768x512) S512x512.size (cc0_transform_11 i) (hinb0_11 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x512_S512x2560_S512x2560_1_0_0_1_n_n : DotDims S512x512 S512x2560 S512x2560 where
  lhsContracting := [1]
  rhsContracting := [0]
  lhsNonContracting := [0]
  rhsNonContracting := [1]
  lhsBatch := []
  rhsBatch := []
  wf := dot_S512x512_S512x2560_S512x2560_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2560.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S1x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S1x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x512, .f32⟩
  | .hbm, ⟨35, _⟩ => ⟨S32768x512, .f32⟩
  | .hbm, ⟨36, _⟩ => ⟨S_, .f32⟩
  | .hbm, ⟨37, _⟩ => ⟨S32768x512, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S1x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S_, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S32768x512, .f32⟩
  | .hbm, ⟨56, _⟩ => ⟨S1x512, .f32⟩
  | .hbm, ⟨57, _⟩ => ⟨S32768x512, .f32⟩
  | .hbm, ⟨58, _⟩ => ⟨S32768x512, .f32⟩
  | .hbm, ⟨59, _⟩ => ⟨S32768x512, .f32⟩
  | .hbm, ⟨60, _⟩ => ⟨S32768x512, .f32⟩
  | .hbm, ⟨61, _⟩ => ⟨S_, .f32⟩
  | .hbm, ⟨62, _⟩ => ⟨S32768x512, .f32⟩
  | .hbm, ⟨63, _⟩ => ⟨S32768x512, .f32⟩
  | .hbm, ⟨64, _⟩ => ⟨S_, .f32⟩
  | .hbm, ⟨65, _⟩ => ⟨S32768x512, .f32⟩
  | .hbm, ⟨66, _⟩ => ⟨S32768x512, .f32⟩
  | .hbm, ⟨67, _⟩ => ⟨S32768x512, .f32⟩
  | .hbm, ⟨68, _⟩ => ⟨S32768x512, .f32⟩
  | .hbm, ⟨69, _⟩ => ⟨S32768x512, .f32⟩
  | .hbm, ⟨70, _⟩ => ⟨S1x512, .f32⟩
  | .hbm, ⟨71, _⟩ => ⟨S32768x512, .f32⟩
  | .hbm, ⟨72, _⟩ => ⟨S32768x512, .f32⟩
  | .hbm, ⟨73, _⟩ => ⟨S32768x512, .f32⟩
  | .hbm, ⟨74, _⟩ => ⟨S32768x512, .f32⟩
  | .hbm, ⟨75, _⟩ => ⟨S32768x512, .f32⟩
  | .hbm, ⟨76, _⟩ => ⟨S32768x512, .f32⟩
  | .hbm, ⟨77, _⟩ => ⟨S32768x512, .f32⟩
  | .hbm, ⟨78, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_1 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.KEntry.lean ====
/-
  The program up to its one region, and the frame claim read off a run of the region.

  @main is ten host operations — two joins of weight matrices side by side, three roundings to the matrix unit's
  input format, five bias vectors laid as rows — and then the region. `V` is what each buffer holds when the
  region is entered: the fold of those ten operations over the launch memory. None of them writes an argument,
  so every argument array is found as launched (`V_main_argK`). A window's block at a grid point is its
  rectangle of the array as the region finds it (`iblk`); an input window's staging buffer holds that block at
  every point, whether the point fetches it or not, because an unfetched window's block index has not moved
  (`before0_W_of`). Finally, a run of the region that ends with every staged array at what the pipeline wrote
  back and every other buffer untouched leaves the eighteen arguments as launched (`frame_of`): three of them
  are staged inputs, which the pipeline only reads, and fifteen are staged by no window at all.
-/
import proofs.«125111_j33526514712650_2_alg».proof.Proof.Gen.Kernel.Launch
import proofs.«125111_j33526514712650_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the ten host operations applied to the launch memory. -/
abbrev V (c : Dev nD) (b : Ref sig .tc) : Buf (Elt F) ((c : Thread nD τ).loc b) := StableHlo.after hostOps0 (fun b => m (c, b)) b

/-- None of the ten allocates. -/
theorem hostOps0_fresh : (hostOps0 : List (HloOp τ sig (Elt F))).Forall fun op => op.fresh = ∅ := by
  simp only [List.Forall]; repeat' constructor

/-- @main is the ten host operations and then the region, entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

end Cert.Kernel.Entry

end
-- ==== Proof.KRegion.lean ====
/-
  The region's run: the kernel body as a triple, the pipeline's proof data, and the frame.

  The body loads its eleven input blocks whole, computes, and overwrites its output block whole with one store;
  it keeps nothing between grid points. So after the body each input's staging buffer holds the block it held,
  and the output's holds the one stored value, a pure function of the eleven input blocks (`out0_11`: the
  stored payload read through the whole-buffer rectangle). The proof data says exactly that at every grid point,
  with every array as the region finds it; the body obligation at a point is the triple applied to the blocks
  the staging buffers hold there; and the library's launch theorem turns the obligation into a run of @main in
  which every weakly fair execution terminates, nothing faults, and the arrays end as the pipeline wrote them.
-/
import proofs.«125111_j33526514712650_2_alg».proof.Proof.KEntry
import proofs.«125111_j33526514712650_2_alg».proof.Proof.Gen.Kernel.Skeleton

set_option maxRecDepth 16384

noncomputable section

namespace Cert.Kernel.Region

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store go through the whole buffer -/

abbrev rB : Rect S512x512 := Rect.unit (s := S512x512) ![0, 0] S512x512.size inb_S512x512_S512x512_0_0
abbrev rW : Rect S512x2048 := Rect.unit (s := S512x2048) ![0, 0] S512x2048.size inb_S512x2048_S512x2048_0_0
abbrev rU : Rect S512x2560 := Rect.unit (s := S512x2560) ![0, 0] S512x2560.size inb_S512x2560_S512x2560_0_0
abbrev rR : Rect S1x512 := Rect.unit (s := S1x512) ![0, 0] S1x512.size inb_S1x512_S1x512_0_0

/-- The output block after the body, from the eleven input blocks: its one store. -/
def out0_11 (x0 : Vec F S512x512 .f32) (x1 : Vec F S512x512 .f32) (x2 : Vec F S512x512 .f32) (x3 : Vec F S512x2048 .bf16) (x4 : Vec F S512x2560 .bf16) (x5 : Vec F S512x512 .bf16) (x6 : Vec F S1x512 .f32) (x7 : Vec F S1x512 .f32) (x8 : Vec F S1x512 .f32) (x9 : Vec F S1x512 .f32) (x10 : Vec F S1x512 .f32) : Vec F S512x512 .f32 :=
  View.canon [⟨rB, k0_pay1 (View.ld x2 rB) (k0_pay2 (View.ld x0 rB) (View.ld x3 rW)) (k0_pay3 (View.ld x1 rB) (View.ld x4 rU))
    (k0_pay4 (View.ld x0 rB) (View.ld x1 rB) (View.ld x3 rW) (View.ld x4 rU) (View.ld x6 rR) (View.ld x5 rB) (View.ld x7 rR))
    (k0_pay5 (View.ld x0 rB) (View.ld x1 rB) (View.ld x3 rW) (View.ld x4 rU) (View.ld x8 rR)) (View.ld x9 rR) (View.ld x10 rR)⟩]

/-- The one store covers the buffer. -/
theorem cover0_11 (p0 : Vec F S512x512 .f32) (y : S512x512.Idx) :
    ∃ pc ∈ ([⟨rB, p0⟩] : List (View.Piece (Elt F) S512x512 .f32)), y ∈ pc.1.set :=
  View.cover_of_tiled [⟨rB, p0⟩] S512x512.size (by rfl) y

/-! ## The body's triple -/

set_option maxHeartbeats 4000000 in
/-- The body on whole staging memrefs, the inputs' at contents `xW` and the output's at anything, runs to the
    continuation holding the inputs' as they were and the output's at `out0_11` of the inputs'. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x2048 .bf16) (harg4 : arg4.IsWhole) (arg5 : Memref sig .tc .vmem S512x2560 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole)
    (x0 : Vec F S512x512 .f32) (x1 : Vec F S512x512 .f32) (x2 : Vec F S512x512 .f32) (x3 : Vec F S512x2048 .bf16) (x4 : Vec F S512x2560 .bf16) (x5 : Vec F S512x512 .bf16) (x6 : Vec F S1x512 .f32) (x7 : Vec F S1x512 .f32) (x8 : Vec F S1x512 .f32) (x9 : Vec F S1x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__mlstm_kernel i arg1 harg1 arg2 harg2 arg3 harg3 arg4 harg4 arg5 harg5 arg6 harg6 arg7 harg7 arg8 harg8 arg9 harg9 arg10 harg10 arg11 harg11 arg12 harg12) K := by
  simp only [cc0__mlstm_kernel_eq_skeleton]; unfold cc0__mlstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

/-! ## The pipeline's proof data -/

/-- On core `c`: the arrays as the region finds them; after the body at point `t` each input's buffer at its block and
    the output's at `out0_11` of the input blocks; nothing of the core's own carried along; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point: the inputs' memrefs hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and every final state has
    every array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its eighteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Region

end
-- ==== Proof.KIEntry.lean ====
/-
  The program up to its one region, and the frame claim read off a run of the region.

  @main is ten host operations — two joins of weight matrices side by side, three roundings to the matrix unit's
  input format, five bias vectors laid as rows — and then the region. `V` is what each buffer holds when the
  region is entered: the fold of those ten operations over the launch memory. None of them writes an argument,
  so every argument array is found as launched (`V_main_argK`). A window's block at a grid point is its
  rectangle of the array as the region finds it (`iblk`); an input window's staging buffer holds that block at
  every point, whether the point fetches it or not, because an unfetched window's block index has not moved
  (`before0_W_of`). Finally, a run of the region that ends with every staged array at what the pipeline wrote
  back and every other buffer untouched leaves the eighteen arguments as launched (`frame_of`): three of them
  are staged inputs, which the pipeline only reads, and fifteen are staged by no window at all.
-/
import proofs.«125111_j33526514712650_2_alg».proof.Proof.Gen.KernelIdeal.Launch
import proofs.«125111_j33526514712650_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the ten host operations applied to the launch memory. -/
abbrev V (c : Dev nD) (b : Ref sig .tc) : Buf (Elt F) ((c : Thread nD τ).loc b) := StableHlo.after hostOps0 (fun b => m (c, b)) b

/-- None of the ten allocates. -/
theorem hostOps0_fresh : (hostOps0 : List (HloOp τ sig (Elt F))).Forall fun op => op.fresh = ∅ := by
  simp only [List.Forall]; repeat' constructor

/-- @main is the ten host operations and then the region, entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

end Cert.KernelIdeal.Entry

end
-- ==== Proof.KIRegion.lean ====
/-
  The region's run: the kernel body as a triple, the pipeline's proof data, and the frame.

  The body loads its eleven input blocks whole, computes, and overwrites its output block whole with one store;
  it keeps nothing between grid points. So after the body each input's staging buffer holds the block it held,
  and the output's holds the one stored value, a pure function of the eleven input blocks (`out0_11`: the
  stored payload read through the whole-buffer rectangle). The proof data says exactly that at every grid point,
  with every array as the region finds it; the body obligation at a point is the triple applied to the blocks
  the staging buffers hold there; and the library's launch theorem turns the obligation into a run of @main in
  which every weakly fair execution terminates, nothing faults, and the arrays end as the pipeline wrote them.
-/
import proofs.«125111_j33526514712650_2_alg».proof.Proof.KIEntry
import proofs.«125111_j33526514712650_2_alg».proof.Proof.Gen.KernelIdeal.Skeleton

set_option maxRecDepth 16384

noncomputable section

namespace Cert.KernelIdeal.Region

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store go through the whole buffer -/

abbrev rB : Rect S512x512 := Rect.unit (s := S512x512) ![0, 0] S512x512.size inb_S512x512_S512x512_0_0
abbrev rW : Rect S512x2048 := Rect.unit (s := S512x2048) ![0, 0] S512x2048.size inb_S512x2048_S512x2048_0_0
abbrev rU : Rect S512x2560 := Rect.unit (s := S512x2560) ![0, 0] S512x2560.size inb_S512x2560_S512x2560_0_0
abbrev rR : Rect S1x512 := Rect.unit (s := S1x512) ![0, 0] S1x512.size inb_S1x512_S1x512_0_0

/-- The output block after the body, from the eleven input blocks: its one store. -/
def out0_11 (x0 : Vec F S512x512 .f32) (x1 : Vec F S512x512 .f32) (x2 : Vec F S512x512 .f32) (x3 : Vec F S512x2048 .bf16) (x4 : Vec F S512x2560 .bf16) (x5 : Vec F S512x512 .bf16) (x6 : Vec F S1x512 .f32) (x7 : Vec F S1x512 .f32) (x8 : Vec F S1x512 .f32) (x9 : Vec F S1x512 .f32) (x10 : Vec F S1x512 .f32) : Vec F S512x512 .f32 :=
  View.canon [⟨rB, k0_pay1 (View.ld x2 rB) (k0_pay2 (View.ld x0 rB) (View.ld x3 rW)) (k0_pay3 (View.ld x1 rB) (View.ld x4 rU))
    (k0_pay4 (View.ld x0 rB) (View.ld x1 rB) (View.ld x3 rW) (View.ld x4 rU) (View.ld x6 rR) (View.ld x5 rB) (View.ld x7 rR))
    (k0_pay5 (View.ld x0 rB) (View.ld x1 rB) (View.ld x3 rW) (View.ld x4 rU) (View.ld x8 rR)) (View.ld x9 rR) (View.ld x10 rR)⟩]

/-- The one store covers the buffer. -/
theorem cover0_11 (p0 : Vec F S512x512 .f32) (y : S512x512.Idx) :
    ∃ pc ∈ ([⟨rB, p0⟩] : List (View.Piece (Elt F) S512x512 .f32)), y ∈ pc.1.set :=
  View.cover_of_tiled [⟨rB, p0⟩] S512x512.size (by rfl) y

/-! ## The body's triple -/

set_option maxHeartbeats 4000000 in
/-- The body on whole staging memrefs, the inputs' at contents `xW` and the output's at anything, runs to the
    continuation holding the inputs' as they were and the output's at `out0_11` of the inputs'. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x2048 .bf16) (harg4 : arg4.IsWhole) (arg5 : Memref sig .tc .vmem S512x2560 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole)
    (x0 : Vec F S512x512 .f32) (x1 : Vec F S512x512 .f32) (x2 : Vec F S512x512 .f32) (x3 : Vec F S512x2048 .bf16) (x4 : Vec F S512x2560 .bf16) (x5 : Vec F S512x512 .bf16) (x6 : Vec F S1x512 .f32) (x7 : Vec F S1x512 .f32) (x8 : Vec F S1x512 .f32) (x9 : Vec F S1x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__mlstm_kernel i arg1 harg1 arg2 harg2 arg3 harg3 arg4 harg4 arg5 harg5 arg6 harg6 arg7 harg7 arg8 harg8 arg9 harg9 arg10 harg10 arg11 harg11 arg12 harg12) K := by
  simp only [cc0__mlstm_kernel_eq_skeleton]; unfold cc0__mlstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

/-! ## The pipeline's proof data -/

/-- On core `c`: the arrays as the region finds them; after the body at point `t` each input's buffer at its block and
    the output's at `out0_11` of the input blocks; nothing of the core's own carried along; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point: the inputs' memrefs hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and every final state has
    every array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its eighteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Region

end
-- ==== Proof.Spec.lean ====
/-
  The mLSTM cell, one step, as one function of the argument arrays over the extended reals.

  For a batch row `p` and a feature `q` (512 features, 32768 rows), with `x`, `h`, `c` the three
  row-major [32768, 512] arrays, ten [512, 512] weight matrices and five bias vectors:

    m[p,k]   = (Σ_j x[p,j]·Wm[j,k] + Σ_j h[p,j]·Um[j,k]) + bm[k]
    x̃[p,k]   = x[p,k] · m[p,k]
    i[p,q]   = σ((Σ_k x̃[p,k]·Wi[k,q] + Σ_k h[p,k]·Ui[k,q]) + bi[q])
    f[p,q]   = σ((Σ_k x[p,k]·Wf[k,q] + Σ_k h[p,k]·Uf[k,q]) + bf[q])
    o[p,q]   = σ((Σ_k x[p,k]·Wo[k,q] + Σ_k h[p,k]·Uo[k,q]) + bo[q])
    c̃[p,q]   = tanh((Σ_k x[p,k]·Wc[k,q] + Σ_k h[p,k]·Uc[k,q]) + bc[q])
    out[p,q] = o[p,q] · tanh(f[p,q]·c[p,q] + i[p,q]·c̃[p,q])

  with σ z = 1 / (1 + e^(-z)) (`Ideal.logistic`). Every entry of the result depends on ONE row of `x` and
  of `h`, one entry of `c`, and the weights: `cell` is that dependence written over plain functions of
  `Fin 512`, and `G` reads it off the arrays. No law of arithmetic is used anywhere: both programs
  compute exactly this expression, in this order of additions.
-/
import Idealize.ShloMosaic.PureOps.Ideal
import Idealize.ShloMosaic.PureOps.Ideal.Laws
import Idealize.ShloMosaic.Lib.ValueIdx

noncomputable section

namespace Cert.MLstm

open Idealize.ShloMosaic Idealize.ShloMosaic.ValueIdx

/-- A row of 512 numbers against column `q` of a 512 × 512 matrix. -/
def dot (u : Fin 512 → EReal) (W : Fin 512 → Fin 512 → EReal) (q : Fin 512) : EReal :=
  ∑ k : Fin 512, u k * W k q

/-- A gate's pre-activation at feature `q`: the input row against `W`, plus the state row against `U`, plus the bias. -/
def pre (xr hr : Fin 512 → EReal) (W U : Fin 512 → Fin 512 → EReal) (b : Fin 512 → EReal) (q : Fin 512) : EReal :=
  (dot xr W q + dot hr U q) + b q

/-- The cell's output at feature `q` from the input row `xr`, the state row `hr`, the memory entry `cv`, the
    ten matrices and the five bias vectors. -/
def cell (xr hr : Fin 512 → EReal) (cv : EReal)
    (Wm Um Wi Ui Wf Uf Wo Uo Wc Uc : Fin 512 → Fin 512 → EReal) (bm bi bf bo bc : Fin 512 → EReal) (q : Fin 512) : EReal :=
  Ideal.logistic (pre xr hr Wo Uo bo q)
    * Ideal.tanh (Ideal.logistic (pre xr hr Wf Uf bf q) * cv
        + Ideal.logistic (pre (fun k => xr k * pre xr hr Wm Um bm k) hr Wi Ui bi q) * Ideal.tanh (pre xr hr Wc Uc bc q))

/-- The [32768, 512] arrays, the [512, 512] matrices and the [512] vectors, as index types. -/
abbrev IdxB : Type := (⟨2, ![32768, 512]⟩ : Shape).Idx
abbrev IdxW : Type := (⟨2, ![512, 512]⟩ : Shape).Idx
abbrev IdxV : Type := (⟨1, ![512]⟩ : Shape).Idx

/-- The result at row `p`, feature `q`, read off the argument arrays. -/
def Gat (x h c : IdxB → EReal) (Wm Um Wi Ui Wf Uf Wo Uo Wc Uc : IdxW → EReal) (bm bi bf bo bc : IdxV → EReal)
    (p : Fin 32768) (q : Fin 512) : EReal :=
  cell (fun k => x (ix2 p k)) (fun k => h (ix2 p k)) (c (ix2 p q))
    (fun k j => Wm (ix2 k j)) (fun k j => Um (ix2 k j)) (fun k j => Wi (ix2 k j)) (fun k j => Ui (ix2 k j))
    (fun k j => Wf (ix2 k j)) (fun k j => Uf (ix2 k j)) (fun k j => Wo (ix2 k j)) (fun k j => Uo (ix2 k j))
    (fun k j => Wc (ix2 k j)) (fun k j => Uc (ix2 k j))
    (fun j => bm (ix1 j)) (fun j => bi (ix1 j)) (fun j => bf (ix1 j)) (fun j => bo (ix1 j)) (fun j => bc (ix1 j)) q

/-- The whole result array as one function of the eighteen argument arrays. -/
def G (x h c : IdxB → EReal) (Wm Um Wi Ui Wf Uf Wo Uo Wc Uc : IdxW → EReal) (bm bi bf bo bc : IdxV → EReal) : IdxB → EReal :=
  fun i => Gat x h c Wm Um Wi Ui Wf Uf Wo Uo Wc Uc bm bi bf bo bc ⟨(i 0).val, idx2_lt0 i⟩ ⟨(i 1).val, idx2_lt1 i⟩

theorem G_ix2 (x h c : IdxB → EReal) (Wm Um Wi Ui Wf Uf Wo Uo Wc Uc : IdxW → EReal) (bm bi bf bo bc : IdxV → EReal)
    (p : Fin 32768) (q : Fin 512) :
    G x h c Wm Um Wi Ui Wf Uf Wo Uo Wc Uc bm bi bf bo bc (ix2 p q) = Gat x h c Wm Um Wi Ui Wf Uf Wo Uo Wc Uc bm bi bf bo bc p q := rfl

/-- Column `j` of the `s`-th 512-wide band of a matrix of four bands side by side ([512, 2048]). -/
def colW (s : Fin 4) (j : Fin 512) : Fin 2048 := ⟨512 * s.val + j.val, by have := s.isLt; have := j.isLt; omega⟩
/-- Column `j` of the `s`-th 512-wide band of a matrix of five bands side by side ([512, 2560]). -/
def colU (s : Fin 5) (j : Fin 512) : Fin 2560 := ⟨512 * s.val + j.val, by have := s.isLt; have := j.isLt; omega⟩

/-- The f32 word of `1.0` denotes the real number one. -/
theorem one_word : Ideal.ofBits .f32 0x3F800000#32 = 1 := by
  simp [Ideal.ofBits, Ideal.ieee, -EReal.coe_mul]; norm_num

/-- jax's expansion of the sigmoid on the host, `1 / (1 + e^(-z))` with both ones the f32 word of `1.0`, is the sigmoid. -/
theorem sigmoid_expansion (z : EReal) :
    Ideal.div (Ideal.ofBits .f32 0x3F800000#32) (Ideal.ofBits .f32 0x3F800000#32 + Ideal.exp (-z)) = Ideal.logistic z := by
  rw [one_word]; rfl

end Cert.MLstm

end
-- ==== Proof.KIHost.lean ====
/-
  What the region finds in the arrays the ten host operations wrote, entry by entry, at the exact reals.

  The wide input-side matrix is four [512, 512] weight matrices side by side, so its column `512·s + j` is column
  `j` of the `s`-th of them; the wide state-side matrix is five side by side in the same way; the narrow one is one
  weight matrix as it is. Rounding to the matrix unit's input format changes nothing at the exact reals. Each bias
  row is its vector laid as the one row of a [1, 512] array.
-/
import proofs.«125111_j33526514712650_2_alg».proof.Proof.KIEntry
import proofs.«125111_j33526514712650_2_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.HostVals

open Cert.KernelIdeal Cert.KernelIdeal.Gen Cert.KernelIdeal.Entry
open Idealize.ShloMosaic Idealize.ShloMosaic.TcCoe Idealize.SL.Sem Idealize.ShloMosaic.StableHlo Idealize.ShloMosaic.ValueIdx Cert.MLstm

variable (m : (ℓ : Loc nD τ sig) → Buf (Elt Ideal) ℓ)

/-! ## Matrices side by side, read at a column of one band -/

theorem cat4_at {α : Type} (As : Fin 4 → (S512x512.Idx → α))
    (h : Shape.Concatenates (([⟨S512x512, As 0⟩, ⟨S512x512, As 1⟩, ⟨S512x512, As 2⟩, ⟨S512x512, As 3⟩] : List ((s : Shape) × (s.Idx → α))).map (·.1)) S512x2048 1)
    (s : Fin 4) (k j : Fin 512) :
    concatenate S512x2048 1 [⟨S512x512, As 0⟩, ⟨S512x512, As 1⟩, ⟨S512x512, As 2⟩, ⟨S512x512, As 3⟩] h (ix2 k (colW s j)) = As s (ix2 k j) := by
  have hi : ∀ (J : Fin 2048) (b : Fin S512x512.rank), b.cast (rfl : S512x512.rank = S512x2048.rank) ≠ (1 : Fin 2) →
      ((ix2 k j : S512x512.Idx) b).val = ((ix2 k J : S512x2048.Idx) (b.cast rfl)).val := fun J b hb => by
    match b with
    | ⟨0, _⟩ => rfl
    | ⟨1, _⟩ => exact absurd rfl hb
  match s with
  | ⟨0, hs⟩ =>
    exact concatenate_apply_piece (1 : Fin S512x2048.rank) [⟨S512x512, As 0⟩, ⟨S512x512, As 1⟩, ⟨S512x512, As 2⟩, ⟨S512x512, As 3⟩] h (ix2 k (colW ⟨0, hs⟩ j)) 0 (by show 0 < 4; omega) S512x512 (As 0) rfl rfl 0 rfl (ix2 k j) (hi _)
      (by show 0 + j.val = 512 * 0 + j.val; omega)
  | ⟨1, hs⟩ =>
    exact concatenate_apply_piece (1 : Fin S512x2048.rank) [⟨S512x512, As 0⟩, ⟨S512x512, As 1⟩, ⟨S512x512, As 2⟩, ⟨S512x512, As 3⟩] h (ix2 k (colW ⟨1, hs⟩ j)) 1 (by show 1 < 4; omega) S512x512 (As 1) rfl rfl 512 rfl (ix2 k j) (hi _)
      (by show 512 + j.val = 512 * 1 + j.val; omega)
  | ⟨2, hs⟩ =>
    exact concatenate_apply_piece (1 : Fin S512x2048.rank) [⟨S512x512, As 0⟩, ⟨S512x512, As 1⟩, ⟨S512x512, As 2⟩, ⟨S512x512, As 3⟩] h (ix2 k (colW ⟨2, hs⟩ j)) 2 (by show 2 < 4; omega) S512x512 (As 2) rfl rfl 1024 rfl (ix2 k j) (hi _)
      (by show 1024 + j.val = 512 * 2 + j.val; omega)
  | ⟨3, hs⟩ =>
    exact concatenate_apply_piece (1 : Fin S512x2048.rank) [⟨S512x512, As 0⟩, ⟨S512x512, As 1⟩, ⟨S512x512, As 2⟩, ⟨S512x512, As 3⟩] h (ix2 k (colW ⟨3, hs⟩ j)) 3 (by show 3 < 4; omega) S512x512 (As 3) rfl rfl 1536 rfl (ix2 k j) (hi _)
      (by show 1536 + j.val = 512 * 3 + j.val; omega)

theorem cat5_at {α : Type} (As : Fin 5 → (S512x512.Idx → α))
    (h : Shape.Concatenates (([⟨S512x512, As 0⟩, ⟨S512x512, As 1⟩, ⟨S512x512, As 2⟩, ⟨S512x512, As 3⟩, ⟨S512x512, As 4⟩] : List ((s : Shape) × (s.Idx → α))).map (·.1)) S512x2560 1)
    (s : Fin 5) (k j : Fin 512) :
    concatenate S512x2560 1 [⟨S512x512, As 0⟩, ⟨S512x512, As 1⟩, ⟨S512x512, As 2⟩, ⟨S512x512, As 3⟩, ⟨S512x512, As 4⟩] h (ix2 k (colU s j)) = As s (ix2 k j) := by
  have hi : ∀ (J : Fin 2560) (b : Fin S512x512.rank), b.cast (rfl : S512x512.rank = S512x2560.rank) ≠ (1 : Fin 2) →
      ((ix2 k j : S512x512.Idx) b).val = ((ix2 k J : S512x2560.Idx) (b.cast rfl)).val := fun J b hb => by
    match b with
    | ⟨0, _⟩ => rfl
    | ⟨1, _⟩ => exact absurd rfl hb
  match s with
  | ⟨0, hs⟩ =>
    exact concatenate_apply_piece (1 : Fin S512x2560.rank) [⟨S512x512, As 0⟩, ⟨S512x512, As 1⟩, ⟨S512x512, As 2⟩, ⟨S512x512, As 3⟩, ⟨S512x512, As 4⟩] h (ix2 k (colU ⟨0, hs⟩ j)) 0 (by show 0 < 5; omega) S512x512 (As 0) rfl rfl 0 rfl (ix2 k j) (hi _)
      (by show 0 + j.val = 512 * 0 + j.val; omega)
  | ⟨1, hs⟩ =>
    exact concatenate_apply_piece (1 : Fin S512x2560.rank) [⟨S512x512, As 0⟩, ⟨S512x512, As 1⟩, ⟨S512x512, As 2⟩, ⟨S512x512, As 3⟩, ⟨S512x512, As 4⟩] h (ix2 k (colU ⟨1, hs⟩ j)) 1 (by show 1 < 5; omega) S512x512 (As 1) rfl rfl 512 rfl (ix2 k j) (hi _)
      (by show 512 + j.val = 512 * 1 + j.val; omega)
  | ⟨2, hs⟩ =>
    exact concatenate_apply_piece (1 : Fin S512x2560.rank) [⟨S512x512, As 0⟩, ⟨S512x512, As 1⟩, ⟨S512x512, As 2⟩, ⟨S512x512, As 3⟩, ⟨S512x512, As 4⟩] h (ix2 k (colU ⟨2, hs⟩ j)) 2 (by show 2 < 5; omega) S512x512 (As 2) rfl rfl 1024 rfl (ix2 k j) (hi _)
      (by show 1024 + j.val = 512 * 2 + j.val; omega)
  | ⟨3, hs⟩ =>
    exact concatenate_apply_piece (1 : Fin S512x2560.rank) [⟨S512x512, As 0⟩, ⟨S512x512, As 1⟩, ⟨S512x512, As 2⟩, ⟨S512x512, As 3⟩, ⟨S512x512, As 4⟩] h (ix2 k (colU ⟨3, hs⟩ j)) 3 (by show 3 < 5; omega) S512x512 (As 3) rfl rfl 1536 rfl (ix2 k j) (hi _)
      (by show 1536 + j.val = 512 * 3 + j.val; omega)
  | ⟨4, hs⟩ =>
    exact concatenate_apply_piece (1 : Fin S512x2560.rank) [⟨S512x512, As 0⟩, ⟨S512x512, As 1⟩, ⟨S512x512, As 2⟩, ⟨S512x512, As 3⟩, ⟨S512x512, As 4⟩] h (ix2 k (colU ⟨4, hs⟩ j)) 4 (by show 4 < 5; omega) S512x512 (As 4) rfl rfl 2048 rfl (ix2 k j) (hi _)
      (by show 2048 + j.val = 512 * 4 + j.val; omega)

/-! ## The arrays the host operations wrote -/

/-- The `s`-th input-side weight matrix of the wide join: W_m, W_f, W_o, W_c. -/
def Wsel (c : Dev nD) (s : Fin 4) : S512x512.Idx → EReal :=
  match s with
  | ⟨0, _⟩ => m ((c : Thread nD τ).loc main_arg3) | ⟨1, _⟩ => m ((c : Thread nD τ).loc main_arg7)
  | ⟨2, _⟩ => m ((c : Thread nD τ).loc main_arg9) | ⟨3, _⟩ => m ((c : Thread nD τ).loc main_arg11)

/-- The `s`-th state-side weight matrix of the wide join: U_m, U_i, U_f, U_o, U_c. -/
def Usel (c : Dev nD) (s : Fin 5) : S512x512.Idx → EReal :=
  match s with
  | ⟨0, _⟩ => m ((c : Thread nD τ).loc main_arg4) | ⟨1, _⟩ => m ((c : Thread nD τ).loc main_arg6)
  | ⟨2, _⟩ => m ((c : Thread nD τ).loc main_arg8) | ⟨3, _⟩ => m ((c : Thread nD τ).loc main_arg10)
  | ⟨4, _⟩ => m ((c : Thread nD τ).loc main_arg12)

theorem Wcat_at (c : Dev nD) (s : Fin 4) (k j : Fin 512) :
    (V m c main_v1 : S512x2048.Idx → EReal) (ix2 k (colW s j)) = Wsel m c s (ix2 k j) := by
  have e : @Eq (S512x2048.Idx → EReal) (V m c main_v1)
      (truncf (F := Ideal) .bf16 (concatenate (α := EReal) S512x2048 1 [⟨S512x512, Wsel m c 0⟩, ⟨S512x512, Wsel m c 1⟩, ⟨S512x512, Wsel m c 2⟩, ⟨S512x512, Wsel m c 3⟩]
          Gen.concatenates_S512x512_S512x512_S512x512_S512x512_S512x2048_d1) Gen.bitsLt_bf16_f32) := by
    dsimp only [V, hostOps0]; after_results; rfl
  exact (congrFun e _).trans (cat4_at (Wsel m c) Gen.concatenates_S512x512_S512x512_S512x512_S512x512_S512x2048_d1 s k j)

theorem Ucat_at (c : Dev nD) (s : Fin 5) (k j : Fin 512) :
    (V m c main_v3 : S512x2560.Idx → EReal) (ix2 k (colU s j)) = Usel m c s (ix2 k j) := by
  have e : @Eq (S512x2560.Idx → EReal) (V m c main_v3)
      (truncf (F := Ideal) .bf16 (concatenate (α := EReal) S512x2560 1 [⟨S512x512, Usel m c 0⟩, ⟨S512x512, Usel m c 1⟩, ⟨S512x512, Usel m c 2⟩, ⟨S512x512, Usel m c 3⟩, ⟨S512x512, Usel m c 4⟩]
          Gen.concatenates_S512x512_S512x512_S512x512_S512x512_S512x512_S512x2560_d1) Gen.bitsLt_bf16_f32) := by
    dsimp only [V, hostOps0]; after_results; rfl
  exact (congrFun e _).trans (cat5_at (Usel m c) Gen.concatenates_S512x512_S512x512_S512x512_S512x512_S512x512_S512x2560_d1 s k j)

theorem Wi_at (c : Dev nD) (k j : Fin 512) :
    (V m c main_v4 : S512x512.Idx → EReal) (ix2 k j) = m ((c : Thread nD τ).loc main_arg5) (ix2 k j) := by
  have e : @Eq (S512x512.Idx → EReal) (V m c main_v4) (truncf (F := Ideal) (φ := .f32) .bf16 (m ((c : Thread nD τ).loc main_arg5)) Gen.bitsLt_bf16_f32) := by
    dsimp only [V, hostOps0]; after_results
  exact congrFun e _

theorem bm_at (c : Dev nD) (j : Fin 512) :
    (V m c main_v5 : S1x512.Idx → EReal) (ix2 (0 : Fin 1) j) = m ((c : Thread nD τ).loc main_arg13) (ix1 j) := by
  have e : @Eq (S1x512.Idx → EReal) (V m c main_v5) (shapeCast S1x512 (m ((c : Thread nD τ).loc main_arg13) : S512.Idx → EReal) Gen.shapeCasts_S512_S1x512) := by
    dsimp only [V, hostOps0]; after_results; rfl
  exact (congrFun e _).trans (shapeCast_a_1a_apply _ _ 0 j)

theorem bi_at (c : Dev nD) (j : Fin 512) :
    (V m c main_v6 : S1x512.Idx → EReal) (ix2 (0 : Fin 1) j) = m ((c : Thread nD τ).loc main_arg14) (ix1 j) := by
  have e : @Eq (S1x512.Idx → EReal) (V m c main_v6) (shapeCast S1x512 (m ((c : Thread nD τ).loc main_arg14) : S512.Idx → EReal) Gen.shapeCasts_S512_S1x512) := by
    dsimp only [V, hostOps0]; after_results; rfl
  exact (congrFun e _).trans (shapeCast_a_1a_apply _ _ 0 j)

theorem bf_at (c : Dev nD) (j : Fin 512) :
    (V m c main_v7 : S1x512.Idx → EReal) (ix2 (0 : Fin 1) j) = m ((c : Thread nD τ).loc main_arg15) (ix1 j) := by
  have e : @Eq (S1x512.Idx → EReal) (V m c main_v7) (shapeCast S1x512 (m ((c : Thread nD τ).loc main_arg15) : S512.Idx → EReal) Gen.shapeCasts_S512_S1x512) := by
    dsimp only [V, hostOps0]; after_results; rfl
  exact (congrFun e _).trans (shapeCast_a_1a_apply _ _ 0 j)

theorem bo_at (c : Dev nD) (j : Fin 512) :
    (V m c main_v8 : S1x512.Idx → EReal) (ix2 (0 : Fin 1) j) = m ((c : Thread nD τ).loc main_arg16) (ix1 j) := by
  have e : @Eq (S1x512.Idx → EReal) (V m c main_v8) (shapeCast S1x512 (m ((c : Thread nD τ).loc main_arg16) : S512.Idx → EReal) Gen.shapeCasts_S512_S1x512) := by
    dsimp only [V, hostOps0]; after_results; rfl
  exact (congrFun e _).trans (shapeCast_a_1a_apply _ _ 0 j)

theorem bc_at (c : Dev nD) (j : Fin 512) :
    (V m c main_v9 : S1x512.Idx → EReal) (ix2 (0 : Fin 1) j) = m ((c : Thread nD τ).loc main_arg17) (ix1 j) := by
  have e : @Eq (S1x512.Idx → EReal) (V m c main_v9) (shapeCast S1x512 (m ((c : Thread nD τ).loc main_arg17) : S512.Idx → EReal) Gen.shapeCasts_S512_S1x512) := by
    dsimp only [V, hostOps0]; after_results; rfl
  exact (congrFun e _).trans (shapeCast_a_1a_apply _ _ 0 j)

end Cert.KernelIdeal.HostVals

end
-- ==== Proof.KIPayload.lean ====
/-
  The kernel body's stored value, read at one entry, is the cell.

  The body forms two wide products, x·[Wm|Wf|Wo|Wc] ([512,512]·[512,2048]) and h·[Um|Ui|Uf|Uo|Uc]
  ([512,512]·[512,2560]), cuts 512-wide column bands out of them, adds a bias row to each sum of two bands,
  and combines the gates. Read at row p and feature q:
    * a product into the zero accumulator is the sum over the contracted coordinate of the operands' products;
    * a column band starting at 512·s reads the wide matrix at column 512·s + q;
    * a one-row bias laid along every row reads the bias at q;
  so every gate's pre-activation is Spec's pre on row p of x and h and the matching bands, and the stored value
  is Spec's cell. No law of arithmetic is used: the additions are grouped as in pre.
-/
import proofs.«125111_j33526514712650_2_alg».proof.Proof.Spec
import proofs.«125111_j33526514712650_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Idealize.SL.Sem Cert.KernelIdeal Cert.KernelIdeal.Gen Cert.MLstm

variable [Cert.KernelIdeal.Facts]

/-! ## The elementwise operations at an index -/

theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-! ## Column bands -/

theorem colW_val (s : Fin 4) (j : Fin 512) : (colW s j).val = 512 * s.val + j.val := rfl
theorem colU_val (s : Fin 5) (j : Fin 512) : (colU s j).val = 512 * s.val + j.val := rfl

theorem sliceW0 (v : FVec Ideal S512x2048 .f32) (h : S512x2048.Slices ![0, 0] S512x512) (p q : Fin 512) :
    extractStridedSlice S512x512 ![0, 0] v h (ix2 p q) = v (ix2 p (colW 0 q)) :=
  slice2_axis1_apply 0 v h p q (colW 0 q) (by rw [colW_val]; rfl)
theorem sliceW1 (v : FVec Ideal S512x2048 .f32) (h : S512x2048.Slices ![0, 512] S512x512) (p q : Fin 512) :
    extractStridedSlice S512x512 ![0, 512] v h (ix2 p q) = v (ix2 p (colW 1 q)) :=
  slice2_axis1_apply 512 v h p q (colW 1 q) (by rw [colW_val]; rfl)
theorem sliceW2 (v : FVec Ideal S512x2048 .f32) (h : S512x2048.Slices ![0, 1024] S512x512) (p q : Fin 512) :
    extractStridedSlice S512x512 ![0, 1024] v h (ix2 p q) = v (ix2 p (colW 2 q)) :=
  slice2_axis1_apply 1024 v h p q (colW 2 q) (by rw [colW_val]; rfl)
theorem sliceW3 (v : FVec Ideal S512x2048 .f32) (h : S512x2048.Slices ![0, 1536] S512x512) (p q : Fin 512) :
    extractStridedSlice S512x512 ![0, 1536] v h (ix2 p q) = v (ix2 p (colW 3 q)) :=
  slice2_axis1_apply 1536 v h p q (colW 3 q) (by rw [colW_val]; rfl)

theorem sliceU0 (v : FVec Ideal S512x2560 .f32) (h : S512x2560.Slices ![0, 0] S512x512) (p q : Fin 512) :
    extractStridedSlice S512x512 ![0, 0] v h (ix2 p q) = v (ix2 p (colU 0 q)) :=
  slice2_axis1_apply 0 v h p q (colU 0 q) (by rw [colU_val]; rfl)
theorem sliceU1 (v : FVec Ideal S512x2560 .f32) (h : S512x2560.Slices ![0, 512] S512x512) (p q : Fin 512) :
    extractStridedSlice S512x512 ![0, 512] v h (ix2 p q) = v (ix2 p (colU 1 q)) :=
  slice2_axis1_apply 512 v h p q (colU 1 q) (by rw [colU_val]; rfl)
theorem sliceU2 (v : FVec Ideal S512x2560 .f32) (h : S512x2560.Slices ![0, 1024] S512x512) (p q : Fin 512) :
    extractStridedSlice S512x512 ![0, 1024] v h (ix2 p q) = v (ix2 p (colU 2 q)) :=
  slice2_axis1_apply 1024 v h p q (colU 2 q) (by rw [colU_val]; rfl)
theorem sliceU3 (v : FVec Ideal S512x2560 .f32) (h : S512x2560.Slices ![0, 1536] S512x512) (p q : Fin 512) :
    extractStridedSlice S512x512 ![0, 1536] v h (ix2 p q) = v (ix2 p (colU 3 q)) :=
  slice2_axis1_apply 1536 v h p q (colU 3 q) (by rw [colU_val]; rfl)
theorem sliceU4 (v : FVec Ideal S512x2560 .f32) (h : S512x2560.Slices ![0, 2048] S512x512) (p q : Fin 512) :
    extractStridedSlice S512x512 ![0, 2048] v h (ix2 p q) = v (ix2 p (colU 4 q)) :=
  slice2_axis1_apply 2048 v h p q (colU 4 q) (by rw [colU_val]; rfl)

/-! ## A bias row laid along every row -/

theorem biasRow_apply {α : Type} (b : S1x512.Idx → α) (hb : S1x512.Broadcasts S512x512) (p q : Fin 512) :
    broadcastTo S512x512 b hb (ix2 p q) = b (ix2 (0 : Fin 1) q) :=
  broadcastTo_1b_ab_apply b hb p q

/-! ## The three products at an index -/

theorem lhs_W_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_W_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_W_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_W_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The product into the zero accumulator, read at row p and column j, is the sum over the contracted coordinate. -/
theorem mm_W_apply (x : FVec Ideal S512x512 .bf16) (w : FVec Ideal S512x2048 .bf16) (p : Fin 512) (j : Fin 2048) :
    matmul dot_S512x512_S512x2048_S512x2048_1_0_0_1_n_n none x w (constant S512x2048 .f32 0x00000000#32) (ix2 p j)
      = ∑ k : Fin 512, x (ix2 p k) * w (ix2 k j) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p j) ((contrEquiv1 dot_S512x512_S512x2048_S512x2048_1_0_0_1_n_n 512 rfl rfl).symm k) = ix2 p k := funext fun a => Fin.ext (by
    match a with
    | ⟨0, _⟩ => exact lhs_W_0 _ _
    | ⟨1, _⟩ => exact (lhs_W_1 _ _).trans hk)
  have er : dot_S512x512_S512x2048_S512x2048_1_0_0_1_n_n.rhsIdx (ix2 p j) ((contrEquiv1 dot_S512x512_S512x2048_S512x2048_1_0_0_1_n_n 512 rfl rfl).symm k) = ix2 k j := funext fun a => Fin.ext (by
    match a with
    | ⟨0, _⟩ => exact (rhs_W_0 _ _).trans hk
    | ⟨1, _⟩ => exact rhs_W_1 _ _)
  rw [el, er]

theorem lhs_U_0 (i : S512x2560.Idx) (q : dot_S512x512_S512x2560_S512x2560_1_0_0_1_n_n.contr.Idx) :
    (dot_S512x512_S512x2560_S512x2560_1_0_0_1_n_n.lhsIdx i q 0).val = (i 0).val := by
  unfold DotDims.lhsIdx
  rw [dif_neg (show ¬(0 : Fin S512x512.rank) ∈ dot_S512x512_S512x2560_S512x2560_1_0_0_1_n_n.lhsBatch by decide), dif_pos (show (0 : Fin S512x512.rank) ∈ dot_S512x512_S512x2560_S512x2560_1_0_0_1_n_n.lhsNonContracting by decide)]
  rfl
theorem lhs_U_1 (i : S512x2560.Idx) (q : dot_S512x512_S512x2560_S512x2560_1_0_0_1_n_n.contr.Idx) :
    (dot_S512x512_S512x2560_S512x2560_1_0_0_1_n_n.lhsIdx i q 1).val = (q ⟨0, by decide⟩).val :=
  dot_S512x512_S512x2560_S512x2560_1_0_0_1_n_n.lhsIdx_val_of_single rfl i q
theorem rhs_U_0 (i : S512x2560.Idx) (q : dot_S512x512_S512x2560_S512x2560_1_0_0_1_n_n.contr.Idx) :
    (dot_S512x512_S512x2560_S512x2560_1_0_0_1_n_n.rhsIdx i q 0).val = (q ⟨0, by decide⟩).val :=
  dot_S512x512_S512x2560_S512x2560_1_0_0_1_n_n.rhsIdx_val_of_single rfl i q
theorem rhs_U_1 (i : S512x2560.Idx) (q : dot_S512x512_S512x2560_S512x2560_1_0_0_1_n_n.contr.Idx) :
    (dot_S512x512_S512x2560_S512x2560_1_0_0_1_n_n.rhsIdx i q 1).val = (i 1).val := by
  unfold DotDims.rhsIdx
  rw [dif_neg (show ¬(1 : Fin S512x2560.rank) ∈ dot_S512x512_S512x2560_S512x2560_1_0_0_1_n_n.rhsBatch by decide), dif_pos (show (1 : Fin S512x2560.rank) ∈ dot_S512x512_S512x2560_S512x2560_1_0_0_1_n_n.rhsNonContracting by decide)]
  rfl

/-- The product into the zero accumulator, read at row p and column j, is the sum over the contracted coordinate. -/
theorem mm_U_apply (x : FVec Ideal S512x512 .bf16) (w : FVec Ideal S512x2560 .bf16) (p : Fin 512) (j : Fin 2560) :
    matmul dot_S512x512_S512x2560_S512x2560_1_0_0_1_n_n none x w (constant S512x2560 .f32 0x00000000#32) (ix2 p j)
      = ∑ k : Fin 512, x (ix2 p k) * w (ix2 k j) := by
  simp only [matmul]
  rw [Ideal.matmul_constant_zero_apply, ← Equiv.sum_comp (contrEquiv1 dot_S512x512_S512x2560_S512x2560_1_0_0_1_n_n 512 rfl rfl).symm]
  refine Finset.sum_congr rfl fun k _ => ?_
  have hk := contrEquiv1_symm_val dot_S512x512_S512x2560_S512x2560_1_0_0_1_n_n 512 rfl rfl k
  have el : dot_S512x512_S512x2560_S512x2560_1_0_0_1_n_n.lhsIdx (ix2 p j) ((contrEquiv1 dot_S512x512_S512x2560_S512x2560_1_0_0_1_n_n 512 rfl rfl).symm k) = ix2 p k := funext fun a => Fin.ext (by
    match a with
    | ⟨0, _⟩ => exact lhs_U_0 _ _
    | ⟨1, _⟩ => exact (lhs_U_1 _ _).trans hk)
  have er : dot_S512x512_S512x2560_S512x2560_1_0_0_1_n_n.rhsIdx (ix2 p j) ((contrEquiv1 dot_S512x512_S512x2560_S512x2560_1_0_0_1_n_n 512 rfl rfl).symm k) = ix2 k j := funext fun a => Fin.ext (by
    match a with
    | ⟨0, _⟩ => exact (rhs_U_0 _ _).trans hk
    | ⟨1, _⟩ => exact rhs_U_1 _ _)
  rw [el, er]

theorem lhs_N_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_N_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_N_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_N_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product into the zero accumulator, read at row p and column j, is the sum over the contracted coordinate. -/
theorem mm_N_apply (x : FVec Ideal S512x512 .bf16) (w : FVec Ideal S512x512 .bf16) (p : Fin 512) (j : Fin 512) :
    matmul dot_S512x512_S512x512_S512x512_1_0_0_1_n_n none x w (constant S512x512 .f32 0x00000000#32) (ix2 p j)
      = ∑ k : Fin 512, x (ix2 p k) * w (ix2 k j) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p j) ((contrEquiv1 dot_S512x512_S512x512_S512x512_1_0_0_1_n_n 512 rfl rfl).symm k) = ix2 p k := funext fun a => Fin.ext (by
    match a with
    | ⟨0, _⟩ => exact lhs_N_0 _ _
    | ⟨1, _⟩ => exact (lhs_N_1 _ _).trans hk)
  have er : dot_S512x512_S512x512_S512x512_1_0_0_1_n_n.rhsIdx (ix2 p j) ((contrEquiv1 dot_S512x512_S512x512_S512x512_1_0_0_1_n_n 512 rfl rfl).symm k) = ix2 k j := funext fun a => Fin.ext (by
    match a with
    | ⟨0, _⟩ => exact (rhs_N_0 _ _).trans hk
    | ⟨1, _⟩ => exact rhs_N_1 _ _)
  rw [el, er]

/-! ## The two wide products of the body -/

theorem pay2_apply (x0 : Vec Ideal S512x512 .f32) (wcat : Vec Ideal S512x2048 .bf16) (p : Fin 512) (j : Fin 2048) :
    k0_pay2 (F := Ideal) x0 wcat (ix2 p j) = ∑ k : Fin 512, x0 (ix2 p k) * wcat (ix2 k j) := by
  unfold k0_pay2
  simp only [shapeCast_self]
  exact mm_W_apply _ _ p j

theorem pay3_apply (h0 : Vec Ideal S512x512 .f32) (ucat : Vec Ideal S512x2560 .bf16) (p : Fin 512) (j : Fin 2560) :
    k0_pay3 (F := Ideal) h0 ucat (ix2 p j) = ∑ k : Fin 512, h0 (ix2 p k) * ucat (ix2 k j) := by
  unfold k0_pay3
  simp only [shapeCast_self]
  exact mm_U_apply _ _ p j

/-! ## The gates at an index -/

/-- The f gate at (p, q): the sigmoid of the band sums plus the bias. -/
theorem pay5_apply (x0 h0 : Vec Ideal S512x512 .f32) (wcat : Vec Ideal S512x2048 .bf16) (ucat : Vec Ideal S512x2560 .bf16)
    (bf : Vec Ideal S1x512 .f32) (p q : Fin 512) :
    k0_pay5 (F := Ideal) x0 h0 wcat ucat bf (ix2 p q)
      = Ideal.logistic (pre (fun k => x0 (ix2 p k)) (fun k => h0 (ix2 p k))
          (fun k j => wcat (ix2 k (colW 1 j))) (fun k j => ucat (ix2 k (colU 2 j))) (fun j => bf (ix2 (0 : Fin 1) j)) q) := by
  unfold k0_pay5
  simp only [logistic_at, addf_apply, sliceW1, sliceU2, shapeCast_self, biasRow_apply, pay2_apply, pay3_apply]
  rfl

/-- The i gate at (p, q): its input row is x scaled entrywise by the m pre-activation. -/
theorem pay4_apply (x0 h0 : Vec Ideal S512x512 .f32) (wcat : Vec Ideal S512x2048 .bf16) (ucat : Vec Ideal S512x2560 .bf16)
    (bm : Vec Ideal S1x512 .f32) (wi : Vec Ideal S512x512 .bf16) (bi : Vec Ideal S1x512 .f32) (p q : Fin 512) :
    k0_pay4 (F := Ideal) x0 h0 wcat ucat bm wi bi (ix2 p q)
      = Ideal.logistic (pre
          (fun k => x0 (ix2 p k) * pre (fun k => x0 (ix2 p k)) (fun k => h0 (ix2 p k))
            (fun k j => wcat (ix2 k (colW 0 j))) (fun k j => ucat (ix2 k (colU 0 j))) (fun j => bm (ix2 (0 : Fin 1) j)) k)
          (fun k => h0 (ix2 p k))
          (fun k j => wi (ix2 k j)) (fun k j => ucat (ix2 k (colU 1 j))) (fun j => bi (ix2 (0 : Fin 1) j)) q) := by
  unfold k0_pay4
  simp only [logistic_at, addf_apply, mulf_apply, truncf_apply, shapeCast_self, mm_N_apply, sliceW0, sliceU0, sliceU1,
    biasRow_apply, pay2_apply, pay3_apply]
  rfl

/-- The stored value at (p, q) from the two wide products and the i and f gates, whatever they are. -/
theorem pay1_apply (c0 : Vec Ideal S512x512 .f32) (v7 : FVec Ideal S512x2048 .f32) (v10 : FVec Ideal S512x2560 .f32)
    (v29 v37 : FVec Ideal S512x512 .f32) (bo bc : Vec Ideal S1x512 .f32) (p q : Fin 512) :
    k0_pay1 (F := Ideal) c0 v7 v10 v29 v37 bo bc (ix2 p q)
      = Ideal.logistic ((v7 (ix2 p (colW 2 q)) + v10 (ix2 p (colU 3 q))) + bo (ix2 (0 : Fin 1) q))
          * Ideal.tanh (v37 (ix2 p q) * c0 (ix2 p q)
              + v29 (ix2 p q) * Ideal.tanh ((v7 (ix2 p (colW 3 q)) + v10 (ix2 p (colU 4 q))) + bc (ix2 (0 : Fin 1) q))) := by
  unfold k0_pay1
  simp only [logistic_at, tanh_at, addf_apply, mulf_apply, sliceW2, sliceW3, sliceU3, sliceU4, shapeCast_self, biasRow_apply]

/-! ## The stored value is the cell -/

theorem payload_cell (x0 h0 c0 : Vec Ideal S512x512 .f32) (wcat : Vec Ideal S512x2048 .bf16) (ucat : Vec Ideal S512x2560 .bf16)
    (wi : Vec Ideal S512x512 .bf16) (bm bi bf bo bc : Vec Ideal S1x512 .f32) (p q : Fin 512) :
    Gen.k0_pay1 (F := Ideal) c0 (Gen.k0_pay2 x0 wcat) (Gen.k0_pay3 h0 ucat) (Gen.k0_pay4 x0 h0 wcat ucat bm wi bi)
        (Gen.k0_pay5 x0 h0 wcat ucat bf) bo bc (ix2 p q)
      = cell (fun k => x0 (ix2 p k)) (fun k => h0 (ix2 p k)) (c0 (ix2 p q))
          (fun k j => wcat (ix2 k (colW 0 j))) (fun k j => ucat (ix2 k (colU 0 j)))
          (fun k j => wi (ix2 k j)) (fun k j => ucat (ix2 k (colU 1 j)))
          (fun k j => wcat (ix2 k (colW 1 j))) (fun k j => ucat (ix2 k (colU 2 j)))
          (fun k j => wcat (ix2 k (colW 2 j))) (fun k j => ucat (ix2 k (colU 3 j)))
          (fun k j => wcat (ix2 k (colW 3 j))) (fun k j => ucat (ix2 k (colU 4 j)))
          (fun j => bm (ix2 0 j)) (fun j => bi (ix2 0 j)) (fun j => bf (ix2 0 j)) (fun j => bo (ix2 0 j)) (fun j => bc (ix2 0 j)) q := by
  rw [pay1_apply, pay4_apply, pay5_apply, pay2_apply, pay2_apply, pay3_apply, pay3_apply]
  rfl

end Cert.KernelIdeal.Payload

end
-- ==== Proof.KIValue.lean ====
/-
  The region's result array is the cell of the launch arrays, entry by entry.

  Grid point `t` (of 64) works on rows `512·t … 512·t + 511`: its blocks of the three batch arrays and of the result
  are those rows, and its blocks of the weight and bias arrays are the whole arrays. What the point writes back is
  the body's stored value of its blocks; read at row `p`, feature `q` of the block that value is the cell of row
  `512·t + p` of the input and state arrays, entry `(512·t + p, q)` of the memory array, and the weights — which is
  entry `(512·t + p, q)` of the one whole-array function `G`. The 64 blocks tile the 32768 rows (row `r` lies in
  block `r / 512`), so after the run the result array IS `G` of the eighteen launch arrays.
-/
import proofs.«125111_j33526514712650_2_alg».proof.Proof.KIRegion
import proofs.«125111_j33526514712650_2_alg».proof.Proof.KIHost
import proofs.«125111_j33526514712650_2_alg».proof.Proof.KIPayload
import proofs.«125111_j33526514712650_2_alg».proof.Proof.Spec
import Idealize.ShloMosaic.Lib.Pipeline.Value

set_option maxRecDepth 16384

noncomputable section

namespace Cert.KernelIdeal.Result

open Cert.KernelIdeal Cert.KernelIdeal.Gen Cert.KernelIdeal.Entry Cert.KernelIdeal.Region Cert.KernelIdeal.HostVals
open Idealize.ShloMosaic Idealize.ShloMosaic.TcCoe Idealize.SL.Sem Idealize.ShloMosaic.ValueIdx Cert.MLstm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of the eighteen launch arrays. -/
def Gm (c : Dev nD) : S32768x512.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- The index maps, decided over the 64 grid points: the batch windows and the result move down one block of rows per
    point; the weight and bias windows stay on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Row `p` of point `t`'s block is row `512·t + p` of the array. -/
def row (t : Fin cfg0.N) (p : Fin 512) : Fin 32768 :=
  ⟨512 * t.val + p.val, by have h : cfg0.N = 64 := N_0; have := t.isLt; have := p.isLt; omega⟩

/-! ## The blocks, read at an entry -/

theorem x_at (c : Dev nD) (t : Fin cfg0.N) (p k : Fin 512) :
    iblk m c 0 t (ix2 p k) = m ((c : Thread nD τ).loc main_arg0) (ix2 (row t p) k) := by
  unfold iblk
  show V m c main_arg0 (((cfg0.win 0).blk t).view.emb (ix2 p k)) = _
  rw [V_main_arg0]
  refine congrArg (m ((c : Thread nD τ).loc main_arg0)) ?_
  have e := idx_facts t
  funext a; apply Fin.ext
  match a with
  | ⟨0, _⟩ => show win0_0.index t (0 : Fin 2) * 512 + 1 * p.val = 512 * t.val + p.val; omega
  | ⟨1, _⟩ => show win0_0.index t (1 : Fin 2) * 512 + 1 * k.val = k.val; omega

theorem h_at (c : Dev nD) (t : Fin cfg0.N) (p k : Fin 512) :
    iblk m c 1 t (ix2 p k) = m ((c : Thread nD τ).loc main_arg1) (ix2 (row t p) k) := by
  unfold iblk
  show V m c main_arg1 (((cfg0.win 1).blk t).view.emb (ix2 p k)) = _
  rw [V_main_arg1]
  refine congrArg (m ((c : Thread nD τ).loc main_arg1)) ?_
  have e := idx_facts t
  funext a; apply Fin.ext
  match a with
  | ⟨0, _⟩ => show win0_1.index t (0 : Fin 2) * 512 + 1 * p.val = 512 * t.val + p.val; omega
  | ⟨1, _⟩ => show win0_1.index t (1 : Fin 2) * 512 + 1 * k.val = k.val; omega

theorem c_at (c : Dev nD) (t : Fin cfg0.N) (p k : Fin 512) :
    iblk m c 2 t (ix2 p k) = m ((c : Thread nD τ).loc main_arg2) (ix2 (row t p) k) := by
  unfold iblk
  show V m c main_arg2 (((cfg0.win 2).blk t).view.emb (ix2 p k)) = _
  rw [V_main_arg2]
  refine congrArg (m ((c : Thread nD τ).loc main_arg2)) ?_
  have e := idx_facts t
  funext a; apply Fin.ext
  match a with
  | ⟨0, _⟩ => show win0_2.index t (0 : Fin 2) * 512 + 1 * p.val = 512 * t.val + p.val; omega
  | ⟨1, _⟩ => show win0_2.index t (1 : Fin 2) * 512 + 1 * k.val = k.val; omega

theorem wcat_blk (c : Dev nD) (t : Fin cfg0.N) (a0 : Fin 512) (a1 : Fin 2048) :
    iblk m c 3 t (ix2 a0 a1) = (V m c main_v1 : S512x2048.Idx → EReal) (ix2 a0 a1) := by
  unfold iblk
  show (V m c main_v1 : S512x2048.Idx → EReal) (((cfg0.win 3).blk t).view.emb (ix2 a0 a1)) = _
  refine congrArg (V m c main_v1 : S512x2048.Idx → EReal) ?_
  have e := idx_facts t
  funext a; apply Fin.ext
  match a with
  | ⟨0, _⟩ => show win0_3.index t (0 : Fin 2) * 512 + 1 * a0.val = a0.val; omega
  | ⟨1, _⟩ => show win0_3.index t (1 : Fin 2) * 2048 + 1 * a1.val = a1.val; omega

theorem ucat_blk (c : Dev nD) (t : Fin cfg0.N) (a0 : Fin 512) (a1 : Fin 2560) :
    iblk m c 4 t (ix2 a0 a1) = (V m c main_v3 : S512x2560.Idx → EReal) (ix2 a0 a1) := by
  unfold iblk
  show (V m c main_v3 : S512x2560.Idx → EReal) (((cfg0.win 4).blk t).view.emb (ix2 a0 a1)) = _
  refine congrArg (V m c main_v3 : S512x2560.Idx → EReal) ?_
  have e := idx_facts t
  funext a; apply Fin.ext
  match a with
  | ⟨0, _⟩ => show win0_4.index t (0 : Fin 2) * 512 + 1 * a0.val = a0.val; omega
  | ⟨1, _⟩ => show win0_4.index t (1 : Fin 2) * 2560 + 1 * a1.val = a1.val; omega

theorem wi_blk (c : Dev nD) (t : Fin cfg0.N) (a0 : Fin 512) (a1 : Fin 512) :
    iblk m c 5 t (ix2 a0 a1) = (V m c main_v4 : S512x512.Idx → EReal) (ix2 a0 a1) := by
  unfold iblk
  show (V m c main_v4 : S512x512.Idx → EReal) (((cfg0.win 5).blk t).view.emb (ix2 a0 a1)) = _
  refine congrArg (V m c main_v4 : S512x512.Idx → EReal) ?_
  have e := idx_facts t
  funext a; apply Fin.ext
  match a with
  | ⟨0, _⟩ => show win0_5.index t (0 : Fin 2) * 512 + 1 * a0.val = a0.val; omega
  | ⟨1, _⟩ => show win0_5.index t (1 : Fin 2) * 512 + 1 * a1.val = a1.val; omega

theorem bm_blk (c : Dev nD) (t : Fin cfg0.N) (a0 : Fin 1) (a1 : Fin 512) :
    iblk m c 6 t (ix2 a0 a1) = (V m c main_v5 : S1x512.Idx → EReal) (ix2 a0 a1) := by
  unfold iblk
  show (V m c main_v5 : S1x512.Idx → EReal) (((cfg0.win 6).blk t).view.emb (ix2 a0 a1)) = _
  refine congrArg (V m c main_v5 : S1x512.Idx → EReal) ?_
  have e := idx_facts t
  funext a; apply Fin.ext
  match a with
  | ⟨0, _⟩ => show win0_6.index t (0 : Fin 2) * 1 + 1 * a0.val = a0.val; omega
  | ⟨1, _⟩ => show win0_6.index t (1 : Fin 2) * 512 + 1 * a1.val = a1.val; omega

theorem bi_blk (c : Dev nD) (t : Fin cfg0.N) (a0 : Fin 1) (a1 : Fin 512) :
    iblk m c 7 t (ix2 a0 a1) = (V m c main_v6 : S1x512.Idx → EReal) (ix2 a0 a1) := by
  unfold iblk
  show (V m c main_v6 : S1x512.Idx → EReal) (((cfg0.win 7).blk t).view.emb (ix2 a0 a1)) = _
  refine congrArg (V m c main_v6 : S1x512.Idx → EReal) ?_
  have e := idx_facts t
  funext a; apply Fin.ext
  match a with
  | ⟨0, _⟩ => show win0_7.index t (0 : Fin 2) * 1 + 1 * a0.val = a0.val; omega
  | ⟨1, _⟩ => show win0_7.index t (1 : Fin 2) * 512 + 1 * a1.val = a1.val; omega

theorem bf_blk (c : Dev nD) (t : Fin cfg0.N) (a0 : Fin 1) (a1 : Fin 512) :
    iblk m c 8 t (ix2 a0 a1) = (V m c main_v7 : S1x512.Idx → EReal) (ix2 a0 a1) := by
  unfold iblk
  show (V m c main_v7 : S1x512.Idx → EReal) (((cfg0.win 8).blk t).view.emb (ix2 a0 a1)) = _
  refine congrArg (V m c main_v7 : S1x512.Idx → EReal) ?_
  have e := idx_facts t
  funext a; apply Fin.ext
  match a with
  | ⟨0, _⟩ => show win0_8.index t (0 : Fin 2) * 1 + 1 * a0.val = a0.val; omega
  | ⟨1, _⟩ => show win0_8.index t (1 : Fin 2) * 512 + 1 * a1.val = a1.val; omega

theorem bo_blk (c : Dev nD) (t : Fin cfg0.N) (a0 : Fin 1) (a1 : Fin 512) :
    iblk m c 9 t (ix2 a0 a1) = (V m c main_v8 : S1x512.Idx → EReal) (ix2 a0 a1) := by
  unfold iblk
  show (V m c main_v8 : S1x512.Idx → EReal) (((cfg0.win 9).blk t).view.emb (ix2 a0 a1)) = _
  refine congrArg (V m c main_v8 : S1x512.Idx → EReal) ?_
  have e := idx_facts t
  funext a; apply Fin.ext
  match a with
  | ⟨0, _⟩ => show win0_9.index t (0 : Fin 2) * 1 + 1 * a0.val = a0.val; omega
  | ⟨1, _⟩ => show win0_9.index t (1 : Fin 2) * 512 + 1 * a1.val = a1.val; omega

theorem bc_blk (c : Dev nD) (t : Fin cfg0.N) (a0 : Fin 1) (a1 : Fin 512) :
    iblk m c 10 t (ix2 a0 a1) = (V m c main_v9 : S1x512.Idx → EReal) (ix2 a0 a1) := by
  unfold iblk
  show (V m c main_v9 : S1x512.Idx → EReal) (((cfg0.win 10).blk t).view.emb (ix2 a0 a1)) = _
  refine congrArg (V m c main_v9 : S1x512.Idx → EReal) ?_
  have e := idx_facts t
  funext a; apply Fin.ext
  match a with
  | ⟨0, _⟩ => show win0_10.index t (0 : Fin 2) * 1 + 1 * a0.val = a0.val; omega
  | ⟨1, _⟩ => show win0_10.index t (1 : Fin 2) * 512 + 1 * a1.val = a1.val; omega

/-! ## What a point writes back -/

set_option maxHeartbeats 1000000 in
theorem flushed_eq (c : Dev nD) (t : Fin cfg0.N) :
    (dats m 0 c).flushed 11 t = ((cfg0.win 11).blk t).view.read (Elt Ideal) (Gm m c) := by
  show (cfg0.win 11).cut (grid0.coords t) ((dats m 0 c).after 11 t) = _
  rw [after0_11]
  unfold out0_11
  rw [View.canon_unit_zero hz]
  simp only [View.ld_unit_zero (S := S512x512) hz, View.ld_unit_zero (S := S512x2048) hz, View.ld_unit_zero (S := S512x2560) hz,
    View.ld_unit_zero (S := S1x512) hz]
  funext y
  obtain ⟨p, q, rfl⟩ : ∃ (p q : Fin 512), y = (ix2 p q : S512x512.Idx) := ⟨y 0, y 1, eq_ix2 y⟩
  have hemb : ((cfg0.win 11).blk t).view.emb (ix2 p q : S512x512.Idx) = (ix2 (row t p) q : S32768x512.Idx) := by
    have e := idx_facts t
    funext a; apply Fin.ext
    match a with
    | ⟨0, _⟩ => show win0_11.index t (0 : Fin 2) * 512 + 1 * p.val = 512 * t.val + p.val; omega
    | ⟨1, _⟩ => show win0_11.index t (1 : Fin 2) * 512 + 1 * q.val = q.val; omega
  show k0_pay1 (F := Ideal) (iblk m c 2 t) (k0_pay2 (iblk m c 0 t) (iblk m c 3 t)) (k0_pay3 (iblk m c 1 t) (iblk m c 4 t))
      (k0_pay4 (iblk m c 0 t) (iblk m c 1 t) (iblk m c 3 t) (iblk m c 4 t) (iblk m c 6 t) (iblk m c 5 t) (iblk m c 7 t))
      (k0_pay5 (iblk m c 0 t) (iblk m c 1 t) (iblk m c 3 t) (iblk m c 4 t) (iblk m c 8 t)) (iblk m c 9 t) (iblk m c 10 t) (ix2 p q)
    = Gm m c (((cfg0.win 11).blk t).view.emb (ix2 p q : S512x512.Idx))
  rw [hemb]
  refine (Cert.KernelIdeal.Payload.payload_cell (iblk m c 0 t) (iblk m c 1 t) (iblk m c 2 t) (iblk m c 3 t) (iblk m c 4 t) (iblk m c 5 t)
    (iblk m c 6 t) (iblk m c 7 t) (iblk m c 8 t) (iblk m c 9 t) (iblk m c 10 t) p q).trans ?_
  unfold Gm
  rw [G_ix2]
  unfold Gat
  simp only [x_at m c t, h_at m c t, c_at m c t, wcat_blk m c t, ucat_blk m c t, wi_blk m c t, bm_blk m c t, bi_blk m c t,
    bf_blk m c t, bo_blk m c t, bc_blk m c t, Wcat_at m c, Ucat_at m c, Wi_at m c, bm_at m c, bi_at m c, bf_at m c, bo_at m c, bc_at m c]
  rfl

/-! ## The blocks tile the array -/

theorem mem_blk (t : Fin cfg0.N) (i : S32768x512.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v10).slice (win0_11.rect t)).set ↔ _
  rw [View.set_slice_whole, Rect.mem_set_unit]
  exact Iff.rfl

theorem cover (c : Dev nD) (i : S32768x512.Idx) :
    ∃ t : Fin cfg0.N, (cfg0.win 11).flush t = true ∧ i ∈ ((cfg0.win 11).blk t).view.set := by
  have hi0 : (i 0).val < 32768 := (i 0).isLt
  have hi1 : (i 1).val < 512 := (i 1).isLt
  have hN : cfg0.N = 64 := N_0
  have ht : (i 0).val / 512 < cfg0.N := by rw [hN]; omega
  refine ⟨⟨(i 0).val / 512, ht⟩, flush0_11 _, ?_⟩
  rw [mem_blk]
  have e := idx_facts ⟨(i 0).val / 512, ht⟩
  intro a
  match a with
  | ⟨0, _⟩ =>
    show win0_11.index ⟨(i 0).val / 512, ht⟩ (0 : Fin 2) * 512 ≤ (i 0).val ∧ (i 0).val < win0_11.index ⟨(i 0).val / 512, ht⟩ (0 : Fin 2) * 512 + 512
    have e0 : win0_11.index ⟨(i 0).val / 512, ht⟩ (0 : Fin 2) = (i 0).val / 512 := e.2.2.2.2.2.2.1
    omega
  | ⟨1, _⟩ =>
    show win0_11.index ⟨(i 0).val / 512, ht⟩ (1 : Fin 2) * 512 ≤ (i 1).val ∧ (i 1).val < win0_11.index ⟨(i 0).val / 512, ht⟩ (1 : Fin 2) * 512 + 512
    have e1 : win0_11.index ⟨(i 0).val / 512, ht⟩ (1 : Fin 2) = 0 := e.2.2.2.2.2.2.2.1
    omega

/-- After the run the result array is the cell of the launch arrays. -/
theorem final (c : Dev nD) : (dats m 0 c).arrAt 11 cfg0.N = Gm m c :=
  (dats m 0 c).arrAt_eq_of_cover 11 (Gm m c) (fun t _ => flushed_eq m c t) (cover c)

/-! ## The run, read -/

theorem run : θ_run defs (onTc (τ := τ) (main (F := Ideal))) ⟨m, fun _ => 0, ρ⟩ fun r => ∀ c : Dev nD,
      r.2.mem ((c.tc : Thread nD τ).loc main_v10) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c => ⟨((h c).1 11).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩)
    (run_main m ρ)

end Cert.KernelIdeal.Result

end
-- ==== Proof.RefValue.lean ====
/-
  The reference program computes the cell function.

  The host program evaluates, for every batch row `p` and feature `q`, four gate pre-activations of one
  shape (a row of `x` against a matrix, plus a row of `h` against a matrix, plus a bias entry), the
  intermediate input `x̃ = x · m`, three sigmoids written as `1 / (1 + e^(-z))`, one hyperbolic tangent
  of a pre-activation, and the output `o · tanh(f · c + i · c̃)`. Each stage is read at the index
  `(p, q)`; the sums over the contracted axis are the specification's `dot`, the grouping of the
  additions is the specification's `pre`, and the expansion of the sigmoid is `Ideal.logistic`.
-/
import proofs.«125111_j33526514712650_2_alg».proof.Proof.Spec
import proofs.«125111_j33526514712650_2_alg».proof.Proof.Gen.ReferenceIdeal.Read

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.MLstm

/-- The three kinds of argument array: a [32768, 512] batch array, a [512, 512] matrix, a [512] vector. -/
abbrev CB : Type := (⟨S32768x512, .f32⟩ : BufTy).Contents (Elt Ideal)
abbrev CW : Type := (⟨S512x512, .f32⟩ : BufTy).Contents (Elt Ideal)
abbrev CV : Type := (⟨S512, .f32⟩ : BufTy).Contents (Elt Ideal)

/-- At the result index `(p, q)`, the `k`-th term of a row-by-column product reads the left operand at `(p, k)`. -/
theorem lidx_eq (p : Fin 32768) (q k : Fin 512) : Read.lidx_main_v0 (ix2 p q) k = ix2 p k :=
  funext fun a => Fin.ext (by match a with | ⟨0, _⟩ => rfl | ⟨1, _⟩ => rfl)

/-- … and the right operand at `(k, q)`. -/
theorem ridx_eq (p : Fin 32768) (q k : Fin 512) : Read.ridx_main_v0 (ix2 p q) k = ix2 k q :=
  funext fun a => Fin.ext (by match a with | ⟨0, _⟩ => rfl | ⟨1, _⟩ => rfl)

/-- A bias vector broadcast over the rows is read, at `(p, q)`, at its entry `q`. -/
theorem bidx_eq (p : Fin 32768) (q : Fin 512) : Read.idx_main_v3 (Read.idx_main_v4 (ix2 p q)) = ix1 q :=
  funext fun a => Fin.ext (by match a with | ⟨0, _⟩ => rfl)

/-- A batch array against a matrix, at `(p, q)`: row `p` of the array against column `q` of the matrix. -/
theorem dot_at (x : CB) (W : CW) (p : Fin 32768) (q : Fin 512) :
    Read.val_main_v0 (F := Ideal) x W (ix2 p q) = dot (fun k => x (ix2 p k)) (fun k j => W (ix2 k j)) q := by
  rw [Read.val_main_v0_apply]
  exact Finset.sum_congr rfl fun k _ => by rw [lidx_eq, ridx_eq]

/-- The broadcast bias at `(p, q)`. -/
theorem bias_at (b : CV) (p : Fin 32768) (q : Fin 512) :
    Read.val_main_v4 (F := Ideal) b (ix2 p q) = b (ix1 q) := by
  rw [Read.val_main_v4_apply, Read.val_main_v3_apply, bidx_eq]

/-- The broadcast constant is the f32 word of `1.0` at every index. -/
theorem one_at (i : S32768x512.Idx) :
    Read.val_main_v15 (F := Ideal) i = Ideal.ofBits .f32 0x3F800000#32 :=
  (Read.val_main_v15_apply (F := Ideal) i).trans (Read.val_main_cst_apply (F := Ideal) _)

/-- A gate's pre-activation stage at `(p, q)` is the specification's `pre` of the two rows, the two matrices and the bias. -/
theorem pre_at (x h : CB) (W U : CW) (b : CV) (p : Fin 32768) (q : Fin 512) :
    Read.val_main_v5 (F := Ideal) x h W U b (ix2 p q)
      = pre (fun k => x (ix2 p k)) (fun k => h (ix2 p k)) (fun k j => W (ix2 k j)) (fun k j => U (ix2 k j))
          (fun j => b (ix1 j)) q := by
  rw [Read.val_main_v5_apply, Read.val_main_v2_apply, dot_at,
    show Read.val_main_v1 (F := Ideal) h U (ix2 p q) = _ from dot_at h U p q, bias_at]
  rfl

/-- A sigmoid gate at `(p, q)`: the expansion `1 / (1 + e^(-z))` of the pre-activation `z` is its logistic. -/
theorem sig_at (x h : CB) (W U : CW) (b : CV) (p : Fin 32768) (q : Fin 512) :
    Read.val_main_v30 (F := Ideal) x h W U b (ix2 p q)
      = Ideal.logistic (pre (fun k => x (ix2 p k)) (fun k => h (ix2 p k)) (fun k j => W (ix2 k j)) (fun k j => U (ix2 k j))
          (fun j => b (ix1 j)) q) := by
  rw [Read.val_main_v30_apply, Read.val_main_v28_apply, Read.val_main_v26_apply, Read.val_main_v25_apply,
    show Read.val_main_v29 (F := Ideal) (ix2 p q) = _ from one_at _,
    show Read.val_main_v27 (F := Ideal) (ix2 p q) = _ from one_at _,
    show Read.val_main_v24 (F := Ideal) x h W U b (ix2 p q) = _ from pre_at x h W U b p q]
  exact sigmoid_expansion _

/-- The intermediate input `x̃ = x · m` at `(p, k)`: the entry of `x` times the m-gate's pre-activation at feature `k`. -/
theorem xtilde_at (x h : CB) (W U : CW) (b : CV) (p : Fin 32768) (k : Fin 512) :
    Read.val_main_v6 (F := Ideal) x h W U b (ix2 p k)
      = x (ix2 p k) * pre (fun k => x (ix2 p k)) (fun k => h (ix2 p k)) (fun k j => W (ix2 k j)) (fun k j => U (ix2 k j))
          (fun j => b (ix1 j)) k := by
  rw [Read.val_main_v6_apply, pre_at]
  rfl

/-- The reference program's result is the cell function of the eighteen argument arrays. -/
theorem ref_is_G (x0 x1 x2 : (⟨S32768x512, .f32⟩ : BufTy).Contents (Elt Ideal)) (x3 x4 x5 x6 x7 x8 x9 x10 x11 x12 : (⟨S512x512, .f32⟩ : BufTy).Contents (Elt Ideal)) (x13 x14 x15 x16 x17 : (⟨S512, .f32⟩ : BufTy).Contents (Elt Ideal)) :
    Cert.ReferenceIdeal.Read.val_main_v54 (F := Ideal) x0 x1 x2 x3 x4 x5 x6 x7 x8 x9 x10 x11 x12 x13 x14 x15 x16 x17
      = Cert.MLstm.G x0 x1 x2 x3 x4 x5 x6 x7 x8 x9 x10 x11 x12 x13 x14 x15 x16 x17 := by
  funext i
  obtain ⟨p, q, rfl⟩ : ∃ (p : Fin 32768) (q : Fin 512), i = ix2 p q := ⟨i 0, i 1, eq_ix2 i⟩
  rw [Read.val_main_v54_apply, Read.val_main_v53_apply, Read.val_main_v52_apply, Read.val_main_v50_apply,
    Read.val_main_v51_apply, Read.val_main_v49_apply,
    show Read.val_main_v42 (F := Ideal) x0 x1 x9 x10 x16 (ix2 p q) = _ from sig_at x0 x1 x9 x10 x16 p q,
    sig_at x0 x1 x7 x8 x15 p q,
    show Read.val_main_v18 (F := Ideal) x0 x1 x3 x4 x5 x6 x13 x14 (ix2 p q) = _ from
      sig_at (Read.val_main_v6 (F := Ideal) x0 x1 x3 x4 x13) x1 x5 x6 x14 p q,
    show Read.val_main_v48 (F := Ideal) x0 x1 x11 x12 x17 (ix2 p q) = _ from pre_at x0 x1 x11 x12 x17 p q,
    show (fun k => Read.val_main_v6 (F := Ideal) x0 x1 x3 x4 x13 (ix2 p k)) = _ from
      funext fun k => xtilde_at x0 x1 x3 x4 x13 p k,
    G_ix2]
  rfl

/-- Every weakly fair execution of the reference program ends with the result array at the cell function of
    the launch contents of the eighteen arguments, and the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v54) = Cert.MLstm.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c).1.trans ((Read.val_main_v54_eq ..).trans (ref_is_G ..)), (h c).2⟩)
    (Cert.ReferenceIdeal.Value.run (F := Ideal) m ρ)

end Cert.ReferenceIdeal.RefValue

end
-- ==== Proof.lean ====
/-
  One step of an mLSTM cell on a batch of 32768 rows of 512 features: the Pallas kernel against its jnp reference,
  equal entry by entry over the extended reals.

  Both programs compute, for row `p` and feature `q`,
      out[p,q] = o · tanh(f · c[p,q] + i · c̃),
  where each gate is an activation of  (x[p,:]·W[:,q] + h[p,:]·U[:,q]) + b[q]  for its own pair of weight matrices and
  bias, the input gate's input row being `x[p,:]` scaled entry by entry by the modulation gate's pre-activation. The
  reference takes ten separate [32768,512]·[512,512] products; the kernel joins nine of the weight matrices side by
  side into two wide matrices, multiplies a block of 512 rows by each once, and cuts the products' column bands apart
  again. A column of a join of matrices is a column of one of them, so every band is the product the reference takes,
  and the additions are grouped identically: no law of arithmetic beyond that reading is used, and the precondition
  (finite inputs) is never opened. The kernel's rounding of matrix operands to bf16 is the identity at the exact reals,
  its `tpu.logistic` is the function jax expands on the host as 1 / (1 + e^(-z)), and its 64 row blocks tile the batch.

  `Spec` states the cell as one function `G` of the eighteen arrays; `RefValue` reads the reference's run as `G`;
  `KIPayload` reads the kernel body's stored value at an entry as the cell of its blocks; `KIEntry` / `KIRegion`
  (and `KEntry` / `KRegion` for the word-level program) run @main through its one region; `KIHost` reads the arrays the
  host operations wrote; `KIValue` puts the blocks together into `G`.
-/
import proofs.«125111_j33526514712650_2_alg».proof.Defs
import proofs.«125111_j33526514712650_2_alg».proof.Proof.Gen.Kernel
import proofs.«125111_j33526514712650_2_alg».proof.Proof.Gen.KernelIdeal
import proofs.«125111_j33526514712650_2_alg».proof.Proof.Gen.ReferenceIdeal
import proofs.«125111_j33526514712650_2_alg».proof.Proof.Gen.Pre_finite_inputs
import proofs.«125111_j33526514712650_2_alg».proof.Proof.Gen.ReferenceIdeal.Read
import proofs.«125111_j33526514712650_2_alg».proof.Proof.KRegion
import proofs.«125111_j33526514712650_2_alg».proof.Proof.KIValue
import proofs.«125111_j33526514712650_2_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments as launched. -/
theorem frame_k : Cert.frame_Kernel (hKernel := Cert.Kernel.Gen.facts) (hPre_finite_inputs := Cert.Pre_finite_inputs.Gen.facts) :=
  fun m ρ _ => Cert.Kernel.Region.frame m ρ

/-- So does the kernel read at the exact reals. -/
theorem frame_ki : Cert.frame_KernelIdeal (hKernelIdeal := Cert.KernelIdeal.Gen.facts) (hPre_finite_inputs := Cert.Pre_finite_inputs.Gen.facts) :=
  fun m ρ _ => Cert.KernelIdeal.Region.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the eighteen arguments both programs end with the result array at `G` of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.Gm m c, Cert.KernelIdeal.Result.run m ρ, ?_⟩
  refine (θ_run Cert.ReferenceIdeal.defs _ _).mono (fun _ h c => ⟨(h c).1.trans ?_, (h c).2⟩)
    (Cert.ReferenceIdeal.RefValue.run_G m' ρ')
  obtain ⟨a0, a1, a2, a3, a4, a5, a6, a7, a8, a9, a10, a11, a12, a13, a14, a15, a16, a17⟩ := hagree c
  rw [a0, a1, a2, a3, a4, a5, a6, a7, a8, a9, a10, a11, a12, a13, a14, a15, a16, a17]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
